-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 56
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is four segments: a stretch of host operations, the first kernel region, a second stretch, the second region.
  The generated frame module follows the buffers' contents through them (`W0 … W4`) and launches the segments with
  every unscoped buffer of the last state read against `W4`; it keeps of that reading the argument arrays only.  Here the
  same launch is read at the result buffer as well: every weakly fair execution terminates with the result at `W4`'s
  contents of it, the arguments unchanged.
-/
import proofs.«122777_j4269197492516_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KernelRun

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«122777_j4269197492516_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.Dense.lean ====
/-
  One dense layer of a mean-aggregating graph convolution, on the extended reals.

  For an array of R rows and 128 features, entry (p, q) of the layer's result is
      (sum over k of  (A[p, k] / D[p, 0]) * Wl[k, q])  +  b[0, q]  +  (sum over k of  H[p, k] * Wr[k, q]),
  where A holds the summed neighbour features of each row, D the column of clamped neighbour counts, H the row's own
  features, Wl and Wr the two weight matrices already transposed, and b the bias as a one-row array.

  Two programs compute it.  On the host it is a quotient by the column broadcast along the features, a matrix
  product, the bias row broadcast down the rows, and a second matrix product added last.  In a kernel's body it is
  the same tree over a block of rows, with the products taken by the matrix unit into a zero accumulator and the
  operands narrowed to sixteen bits on the way in.  On the extended reals a change of float format is the identity,
  both kinds of product are the plain sum over the contracted index, and both programs add in the same order
  (product, then bias, then second product), so each is this function, with no side condition on the entries.

  The function at R rows, restricted to a block of rows, is the function at the block's height of the operands'
  blocks: a row's entry reads that row of A, D and H only.
-/
import Idealize.ShloMosaic.PureOps.Ideal.Laws
import Idealize.ShloMosaic.Lib.ValueIdx
import Idealize.ShloMosaic.Lib.ValueLayout
import Idealize.ShloMosaic.Lib.Pipeline.Value
import proofs.«122777_j4269197492516_2_alg».proof.Proof.LibMatmulNN
import proofs.«122777_j4269197492516_2_alg».proof.Proof.LibDotGeneralNN
import proofs.«122777_j4269197492516_2_alg».proof.Proof.LibColumnLayout
import proofs.«122777_j4269197492516_2_alg».proof.Proof.LibBroadcastInDimPair

noncomputable section

open scoped BigOperators

namespace Cert.Dense

open Idealize.ShloMosaic Idealize.ShloMosaic.ValueIdx

/-! ## The layer -/

variable (R : Nat)

/-- The layer's result from its six operands, entry by entry. -/
def combine (A H : FVec Ideal ⟨2, ![R, 128]⟩ .f32) (D : FVec Ideal ⟨2, ![R, 1]⟩ .f32)
    (Wl Wr : FVec Ideal ⟨2, ![128, 128]⟩ .f32) (b : FVec Ideal ⟨2, ![1, 128]⟩ .f32) : FVec Ideal ⟨2, ![R, 128]⟩ .f32 :=
  fun j => ((∑ k : Fin 128, Ideal.div (A (ix2 (j 0) k)) (D (ix2 (j 0) (0 : Fin 1))) * Wl (ix2 k (j 1)))
      + b (ix2 (0 : Fin 1) (j 1)))
    + ∑ k : Fin 128, H (ix2 (j 0) k) * Wr (ix2 k (j 1))

theorem combine_apply (A H : FVec Ideal ⟨2, ![R, 128]⟩ .f32) (D : FVec Ideal ⟨2, ![R, 1]⟩ .f32)
    (Wl Wr : FVec Ideal ⟨2, ![128, 128]⟩ .f32) (b : FVec Ideal ⟨2, ![1, 128]⟩ .f32) (p : Fin R) (q : Fin 128) :
    combine R A H D Wl Wr b (ix2 p q)
      = ((∑ k : Fin 128, Ideal.div (A (ix2 p k)) (D (ix2 p (0 : Fin 1))) * Wl (ix2 k q)) + b (ix2 (0 : Fin 1) q))
        + ∑ k : Fin 128, H (ix2 p k) * Wr (ix2 k q) := rfl

/-- THE HOST'S FORM: quotient by the broadcast column, product, broadcast bias row, second product. -/
theorem host_form (d : DotDims ⟨2, ![R, 128]⟩ ⟨2, ![128, 128]⟩ ⟨2, ![R, 128]⟩) (hd : d = DotDims.plain R 128 128)
    (A H : FVec Ideal ⟨2, ![R, 128]⟩ .f32) (D : FVec Ideal ⟨2, ![R, 1]⟩ .f32)
    (Wl Wr : FVec Ideal ⟨2, ![128, 128]⟩ .f32) (b : FVec Ideal ⟨2, ![1, 128]⟩ .f32)
    (hD : (⟨2, ![R, 1]⟩ : Shape).BroadcastsInDim ⟨2, ![R, 128]⟩ ![0, 1])
    (hb : (⟨2, ![1, 128]⟩ : Shape).BroadcastsInDim ⟨2, ![R, 128]⟩ ![0, 1]) :
    addf (addf (Host.dotGeneral d none (Host.divf A (broadcastInDim ⟨2, ![R, 128]⟩ ![0, 1] hD D)) Wl)
        (broadcastInDim ⟨2, ![R, 128]⟩ ![0, 1] hb b))
      (Host.dotGeneral d none H Wr)
    = combine R A H D Wl Wr b := by
  subst hd
  funext j
  obtain ⟨p, q, rfl⟩ : ∃ (p : Fin R) (q : Fin 128), j = ix2 p q := ⟨j 0, j 1, eq_ix2 j⟩
  rw [combine_apply, addf_apply, addf_apply, broadcastInDim_row_apply]
  simp only [Host.dotGeneral]
  rw [LibDotGeneralNN.dotGeneral_apply, LibDotGeneralNN.dotGeneral_apply]
  refine congrArg (· + _) (congrArg (· + _) (Finset.sum_congr rfl fun k _ => ?_))
  show Ideal.div (A (ix2 p k)) (broadcastInDim ⟨2, ![R, 128]⟩ ![0, 1] hD D (ix2 p k)) * Wl (ix2 k q) = _
  rw [broadcastInDim_col_apply]

/-- THE KERNEL BODY'S FORM over a block of `R` rows: quotient by the column broadcast along the lanes, both operands
    of each product narrowed, the products taken into zero, the bias row broadcast down the block. -/
theorem body_form (d : DotDims ⟨2, ![R, 128]⟩ ⟨2, ![128, 128]⟩ ⟨2, ![R, 128]⟩) (hd : d = DotDims.plain R 128 128)
    (A H : FVec Ideal ⟨2, ![R, 128]⟩ .f32) (D : FVec Ideal ⟨2, ![R, 1]⟩ .f32)
    (Wl Wr : FVec Ideal ⟨2, ![128, 128]⟩ .f32) (b : FVec Ideal ⟨2, ![1, 128]⟩ .f32)
    (hD : (⟨2, ![R, 1]⟩ : Shape).Broadcasts ⟨2, ![R, 128]⟩)
    (hb : (⟨2, ![1, 128]⟩ : Shape).Broadcasts ⟨2, ![R, 128]⟩)
    (hbits : FTy.bf16.bits < FTy.f32.bits) :
    addf (addf (matmul d none (truncf .bf16 (divf A (broadcastTo ⟨2, ![R, 128]⟩ D hD)) hbits) (truncf .bf16 Wl hbits)
          (constant (F := Ideal) ⟨2, ![R, 128]⟩ .f32 0x00000000#32))
        (broadcastTo ⟨2, ![R, 128]⟩ b hb))
      (matmul d none (truncf .bf16 H hbits) (truncf .bf16 Wr hbits) (constant (F := Ideal) ⟨2, ![R, 128]⟩ .f32 0x00000000#32))
    = combine R A H D Wl Wr b := by
  subst hd
  funext j
  obtain ⟨p, q, rfl⟩ : ∃ (p : Fin R) (q : Fin 128), j = ix2 p q := ⟨j 0, j 1, eq_ix2 j⟩
  rw [combine_apply, addf_apply, addf_apply, broadcastTo_1b_ab_apply]
  show FloatOps.matmul _ _ _ _ _ _ + _ + FloatOps.matmul _ _ _ _ _ _ = _
  rw [LibMatmulNN.matmul_zero_apply, LibMatmulNN.matmul_zero_apply]
  refine congrArg (· + _) (congrArg (· + _) (Finset.sum_congr rfl fun k _ => ?_))
  show Ideal.div (A (ix2 p k)) (broadcastTo ⟨2, ![R, 128]⟩ D hD (ix2 p k)) * Wl (ix2 k q) = _
  rw [broadcastTo_a1_ab_apply]

/-! ## A block of rows -/

/-- Rows `o … o + B - 1` of the layer at `R` rows are the layer at `B` rows of any operands that hold those rows of the
    three row-indexed arrays and the same weights and bias: a row's entry reads that row of `A`, `D`, `H` only. -/
theorem combine_of_rows (B o : Nat) (ho : o + B ≤ R)
    (A H : FVec Ideal ⟨2, ![R, 128]⟩ .f32) (D : FVec Ideal ⟨2, ![R, 1]⟩ .f32)
    (Wl Wr : FVec Ideal ⟨2, ![128, 128]⟩ .f32) (b : FVec Ideal ⟨2, ![1, 128]⟩ .f32)
    (A' H' : FVec Ideal ⟨2, ![B, 128]⟩ .f32) (D' : FVec Ideal ⟨2, ![B, 1]⟩ .f32)
    (Wl' Wr' : FVec Ideal ⟨2, ![128, 128]⟩ .f32) (b' : FVec Ideal ⟨2, ![1, 128]⟩ .f32)
    (hA : ∀ (p : Fin B) (k : Fin 128), A' (ix2 p k) = A (ix2 (⟨o + p.val, by have := p.isLt; omega⟩ : Fin R) k))
    (hH : ∀ (p : Fin B) (k : Fin 128), H' (ix2 p k) = H (ix2 (⟨o + p.val, by have := p.isLt; omega⟩ : Fin R) k))
    (hD : ∀ (p : Fin B), D' (ix2 p (0 : Fin 1)) = D (ix2 (⟨o + p.val, by have := p.isLt; omega⟩ : Fin R) (0 : Fin 1)))
    (hWl : ∀ (k q : Fin 128), Wl' (ix2 k q) = Wl (ix2 k q))
    (hWr : ∀ (k q : Fin 128), Wr' (ix2 k q) = Wr (ix2 k q))
    (hb : ∀ (q : Fin 128), b' (ix2 (0 : Fin 1) q) = b (ix2 (0 : Fin 1) q))
    (p : Fin B) (q : Fin 128) :
    combine B A' H' D' Wl' Wr' b' (ix2 p q)
      = combine R A H D Wl Wr b (ix2 (⟨o + p.val, by have := p.isLt; omega⟩ : Fin R) q) := by
  rw [combine_apply, combine_apply]
  simp only [hA, hH, hD, hWl, hWr, hb]

end Cert.Dense

end
-- ==== Proof.RegionValue.lean ====
/-
  What each of the two kernel regions leaves in its output array, on the extended reals.

  Each region walks twenty blocks of 5000 rows.  At block `t` its body reads rows `5000 t … 5000 t + 4999` of the summed
  neighbour features, of the rows' own features and of the column of clamped neighbour counts, and the whole of the two
  weight matrices and of the bias row; it stores one block of 5000 × 128 values, which the pipeline writes back to the
  same rows of the output array.  The stored block is the dense layer (Dense.lean) of the blocks read, and the dense
  layer's entry at a row depends on that row only, so the block written back is the block of the layer of the WHOLE
  arrays; the twenty blocks fill the array; hence the array ends holding the layer of the arrays the region found.

  Everything is stated at an arbitrary valuation `V` of the buffers at the region's entry, so that the two regions,
  entered at different contents, share one argument each.
-/
import proofs.«122777_j4269197492516_2_alg».proof.Proof.Gen.KernelIdeal.Frame
import proofs.«122777_j4269197492516_2_alg».proof.Proof.Dense

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The first region's stored value is the dense layer of the blocks it loaded (its own-features operand is the
    third load, the column the second). -/
theorem pay0_eq (v0 : Vec Ideal S5000x128 .f32) (v2 : Vec Ideal S5000x1 .f32) (v7 : Vec Ideal S5000x128 .f32)
    (v9 v12 : Vec Ideal S128x128 .f32) (v16 : Vec Ideal S1x128 .f32) :
    k0_pay1 (F := Ideal) v0 v2 v7 v9 v12 v16 = Cert.Dense.combine 5000 v0 v7 v2 v9 v12 v16 := by
  unfold k0_pay1
  simp only [shapeCast_self]
  exact Cert.Dense.body_form 5000 _ rfl v0 v7 v2 v9 v12 v16 _ _ _

/-- The second region's stored value likewise. -/
theorem pay1_eq (v0 : Vec Ideal S5000x128 .f32) (v2 : Vec Ideal S5000x1 .f32) (v7 : Vec Ideal S5000x128 .f32)
    (v9 v12 : Vec Ideal S128x128 .f32) (v16 : Vec Ideal S1x128 .f32) :
    k1_pay1 (F := Ideal) v0 v2 v7 v9 v12 v16 = Cert.Dense.combine 5000 v0 v7 v2 v9 v12 v16 := by
  unfold k1_pay1
  simp only [shapeCast_self]
  exact Cert.Dense.body_form 5000 _ rfl v0 v7 v2 v9 v12 v16 _ _ _

variable (V : (c : Dev nD) → (b : Ref sig .tc) → Buf (Elt Ideal) ((c : Thread nD τ).loc b))

/-! ## Region 0 -/

section Region0

theorem points0 (t : Fin cfg0.N) : t.val < 20 := by
  have h : t.val < grid0.N := t.isLt
  have hN : grid0.N = 20 := N_0
  omega

/-- The printed index maps over the grid: the three row-blocked inputs and the output are at block row `t`, the weights and
    the bias at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block `t` of the summed neighbour features: rows `5000 t … 5000 t + 4999` of the array. -/
theorem read0_0 (c : Dev nD) (t : Fin cfg0.N) (p : Fin 5000) (k : Fin 128) :
    iblk0 V c 0 t (ix2 p k)
      = V c main_v20 (ix2 (⟨t.val * 5000 + p.val, by have := p.isLt; have := points0 t; omega⟩ : Fin 100000) k) := by
  obtain ⟨e0, e1, -⟩ := idx_facts0 t
  show V c main_v20 (((cfg0.win 0).blk t).view.emb (ix2 p k)) = _
  refine congrArg (V c main_v20) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block `t` of the rows' own features: the same rows. -/
theorem read0_1 (c : Dev nD) (t : Fin cfg0.N) (p : Fin 5000) (k : Fin 128) :
    iblk0 V c 1 t (ix2 p k)
      = V c main_arg0 (ix2 (⟨t.val * 5000 + p.val, by have := p.isLt; have := points0 t; omega⟩ : Fin 100000) k) := by
  obtain ⟨-, -, e0, e1, -⟩ := idx_facts0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Block `t` of the column of clamped neighbour counts: the same rows of the column. -/
theorem read0_2 (c : Dev nD) (t : Fin cfg0.N) (p : Fin 5000) :
    iblk0 V c 2 t (ix2 p (0 : Fin 1))
      = V c main_v10 (ix2 (⟨t.val * 5000 + p.val, by have := p.isLt; have := points0 t; omega⟩ : Fin 100000) (0 : Fin 1)) := by
  obtain ⟨-, -, -, -, e0, e1, -⟩ := idx_facts0 t
  show V c main_v10 (((cfg0.win 2).blk t).view.emb (ix2 p (0 : Fin 1))) = _
  refine congrArg (V c main_v10) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The one block of the first weight matrix is the matrix. -/
theorem read0_3 (c : Dev nD) (t : Fin cfg0.N) (k q : Fin 128) :
    iblk0 V c 3 t (ix2 k q) = V c main_v21 (ix2 k q) := by
  obtain ⟨-, -, -, -, -, -, e0, e1, -⟩ := idx_facts0 t
  show V c main_v21 (((cfg0.win 3).blk t).view.emb (ix2 k q)) = _
  refine congrArg (V c main_v21) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The one block of the second weight matrix is the matrix. -/
theorem read0_4 (c : Dev nD) (t : Fin cfg0.N) (k q : Fin 128) :
    iblk0 V c 4 t (ix2 k q) = V c main_v22 (ix2 k q) := by
  obtain ⟨-, -, -, -, -, -, -, -, e0, e1, -⟩ := idx_facts0 t
  show V c main_v22 (((cfg0.win 4).blk t).view.emb (ix2 k q)) = _
  refine congrArg (V c main_v22) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The one block of the bias row is the row. -/
theorem read0_5 (c : Dev nD) (t : Fin cfg0.N) (q : Fin 128) :
    iblk0 V c 5 t (ix2 (0 : Fin 1) q) = V c main_v23 (ix2 (0 : Fin 1) q) := by
  obtain ⟨-, -, -, -, -, -, -, -, -, -, e0, e1, -⟩ := idx_facts0 t
  show V c main_v23 (((cfg0.win 5).blk t).view.emb (ix2 (0 : Fin 1) q)) = _
  refine congrArg (V c main_v23) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Where entry `(p, q)` of the output's block `t` lies in the output array: row `5000 t + p`. -/
theorem emb0_6 (t : Fin cfg0.N) (p : Fin 5000) (q : Fin 128) :
    ((cfg0.win 6).blk t).view.emb (ix2 p q)
      = ix2 (⟨t.val * 5000 + p.val, by have := p.isLt; have := points0 t; omega⟩ : Fin 100000) q := by
  obtain ⟨-, -, -, -, -, -, -, -, -, -, -, -, e0, e1⟩ := idx_facts0 t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-- WHAT POINT `t` WRITES BACK is block `t` of the layer of the arrays as the region finds them. -/
theorem flushed0 (c : Dev nD) (t : Fin cfg0.N) :
    (dat0 (F := Ideal) V c).flushed 6 t = ((cfg0.win 6).blk t).view.read (Elt Ideal)
      (Cert.Dense.combine 100000 (V c main_v20) (V c main_arg0) (V c main_v10) (V c main_v21) (V c main_v22) (V c main_v23)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay0_eq]
  funext y
  obtain ⟨p, q, rfl⟩ : ∃ (p : Fin 5000) (q : Fin 128), y = ix2 p q := ⟨y 0, y 1, eq_ix2 y⟩
  show Cert.Dense.combine 5000 (iblk0 V c 0 t) (iblk0 V c 1 t) (iblk0 V c 2 t) (iblk0 V c 3 t) (iblk0 V c 4 t)
      (iblk0 V c 5 t) (ix2 p q)
    = Cert.Dense.combine 100000 (V c main_v20) (V c main_arg0) (V c main_v10) (V c main_v21) (V c main_v22) (V c main_v23)
      (((cfg0.win 6).blk t).view.emb (ix2 p q))
  rw [emb0_6]
  exact Cert.Dense.combine_of_rows 100000 5000 (t.val * 5000) (by have := points0 t; omega)
    (V c main_v20) (V c main_arg0) (V c main_v10) (V c main_v21) (V c main_v22) (V c main_v23)
    (iblk0 V c 0 t) (iblk0 V c 1 t) (iblk0 V c 2 t) (iblk0 V c 3 t) (iblk0 V c 4 t) (iblk0 V c 5 t)
    (read0_0 V c t) (read0_1 V c t) (read0_2 V c t) (read0_3 V c t) (read0_4 V c t) (read0_5 V c t) p q

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- The twenty blocks of 5000 rows fill the output array: row `r` is in block `r / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, show (i 0).val / 5000 < grid0.N by omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE OUTPUT ARRAY after the region: the layer of the arrays as the region finds them. -/
theorem final0 (c : Dev nD) :
    (dat0 (F := Ideal) V c).arrAt 6 cfg0.N
      = Cert.Dense.combine 100000 (V c main_v20) (V c main_arg0) (V c main_v10) (V c main_v21) (V c main_v22) (V c main_v23) :=
  (dat0 V c).arrAt_eq_of_cover 6 _ (fun t _ => flushed0 V c t) cover0

end Region0

/-! ## Region 1 -/

section Region1

theorem points1 (t : Fin cfg1.N) : t.val < 20 := by
  have h : t.val < grid1.N := t.isLt
  have hN : grid1.N = 20 := N_1
  omega

/-- The printed index maps over the grid: the three row-blocked inputs and the output are at block row `t`, the weights and
    the bias at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of the summed neighbour features: rows `5000 t … 5000 t + 4999` of the array. -/
theorem read1_0 (c : Dev nD) (t : Fin cfg1.N) (p : Fin 5000) (k : Fin 128) :
    iblk1 V c 0 t (ix2 p k)
      = V c main_v34 (ix2 (⟨t.val * 5000 + p.val, by have := p.isLt; have := points1 t; omega⟩ : Fin 100000) k) := by
  obtain ⟨e0, e1, -⟩ := idx_facts1 t
  show V c main_v34 (((cfg1.win 0).blk t).view.emb (ix2 p k)) = _
  refine congrArg (V c main_v34) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block `t` of the rows' own features: the same rows. -/
theorem read1_1 (c : Dev nD) (t : Fin cfg1.N) (p : Fin 5000) (k : Fin 128) :
    iblk1 V c 1 t (ix2 p k)
      = V c main_v24 (ix2 (⟨t.val * 5000 + p.val, by have := p.isLt; have := points1 t; omega⟩ : Fin 100000) k) := by
  obtain ⟨-, -, e0, e1, -⟩ := idx_facts1 t
  show V c main_v24 (((cfg1.win 1).blk t).view.emb (ix2 p k)) = _
  refine congrArg (V c main_v24) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Block `t` of the column of clamped neighbour counts: the same rows of the column. -/
theorem read1_2 (c : Dev nD) (t : Fin cfg1.N) (p : Fin 5000) :
    iblk1 V c 2 t (ix2 p (0 : Fin 1))
      = V c main_v10 (ix2 (⟨t.val * 5000 + p.val, by have := p.isLt; have := points1 t; omega⟩ : Fin 100000) (0 : Fin 1)) := by
  obtain ⟨-, -, -, -, e0, e1, -⟩ := idx_facts1 t
  show V c main_v10 (((cfg1.win 2).blk t).view.emb (ix2 p (0 : Fin 1))) = _
  refine congrArg (V c main_v10) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The one block of the first weight matrix is the matrix. -/
theorem read1_3 (c : Dev nD) (t : Fin cfg1.N) (k q : Fin 128) :
    iblk1 V c 3 t (ix2 k q) = V c main_v35 (ix2 k q) := by
  obtain ⟨-, -, -, -, -, -, e0, e1, -⟩ := idx_facts1 t
  show V c main_v35 (((cfg1.win 3).blk t).view.emb (ix2 k q)) = _
  refine congrArg (V c main_v35) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The one block of the second weight matrix is the matrix. -/
theorem read1_4 (c : Dev nD) (t : Fin cfg1.N) (k q : Fin 128) :
    iblk1 V c 4 t (ix2 k q) = V c main_v36 (ix2 k q) := by
  obtain ⟨-, -, -, -, -, -, -, -, e0, e1, -⟩ := idx_facts1 t
  show V c main_v36 (((cfg1.win 4).blk t).view.emb (ix2 k q)) = _
  refine congrArg (V c main_v36) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The one block of the bias row is the row. -/
theorem read1_5 (c : Dev nD) (t : Fin cfg1.N) (q : Fin 128) :
    iblk1 V c 5 t (ix2 (0 : Fin 1) q) = V c main_v37 (ix2 (0 : Fin 1) q) := by
  obtain ⟨-, -, -, -, -, -, -, -, -, -, e0, e1, -⟩ := idx_facts1 t
  show V c main_v37 (((cfg1.win 5).blk t).view.emb (ix2 (0 : Fin 1) q)) = _
  refine congrArg (V c main_v37) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Where entry `(p, q)` of the output's block `t` lies in the output array: row `5000 t + p`. -/
theorem emb1_6 (t : Fin cfg1.N) (p : Fin 5000) (q : Fin 128) :
    ((cfg1.win 6).blk t).view.emb (ix2 p q)
      = ix2 (⟨t.val * 5000 + p.val, by have := p.isLt; have := points1 t; omega⟩ : Fin 100000) q := by
  obtain ⟨-, -, -, -, -, -, -, -, -, -, -, -, e0, e1⟩ := idx_facts1 t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- WHAT POINT `t` WRITES BACK is block `t` of the layer of the arrays as the region finds them. -/
theorem flushed1 (c : Dev nD) (t : Fin cfg1.N) :
    (dat1 (F := Ideal) V c).flushed 6 t = ((cfg1.win 6).blk t).view.read (Elt Ideal)
      (Cert.Dense.combine 100000 (V c main_v34) (V c main_v24) (V c main_v10) (V c main_v35) (V c main_v36) (V c main_v37)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  rw [pay1_eq]
  funext y
  obtain ⟨p, q, rfl⟩ : ∃ (p : Fin 5000) (q : Fin 128), y = ix2 p q := ⟨y 0, y 1, eq_ix2 y⟩
  show Cert.Dense.combine 5000 (iblk1 V c 0 t) (iblk1 V c 1 t) (iblk1 V c 2 t) (iblk1 V c 3 t) (iblk1 V c 4 t)
      (iblk1 V c 5 t) (ix2 p q)
    = Cert.Dense.combine 100000 (V c main_v34) (V c main_v24) (V c main_v10) (V c main_v35) (V c main_v36) (V c main_v37)
      (((cfg1.win 6).blk t).view.emb (ix2 p q))
  rw [emb1_6]
  exact Cert.Dense.combine_of_rows 100000 5000 (t.val * 5000) (by have := points1 t; omega)
    (V c main_v34) (V c main_v24) (V c main_v10) (V c main_v35) (V c main_v36) (V c main_v37)
    (iblk1 V c 0 t) (iblk1 V c 1 t) (iblk1 V c 2 t) (iblk1 V c 3 t) (iblk1 V c 4 t) (iblk1 V c 5 t)
    (read1_0 V c t) (read1_1 V c t) (read1_2 V c t) (read1_3 V c t) (read1_4 V c t) (read1_5 V c t) p q

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- The twenty blocks of 5000 rows fill the output array: row `r` is in block `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, show (i 0).val / 5000 < grid1.N by omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE OUTPUT ARRAY after the region: the layer of the arrays as the region finds them. -/
theorem final1 (c : Dev nD) :
    (dat1 (F := Ideal) V c).arrAt 6 cfg1.N
      = Cert.Dense.combine 100000 (V c main_v34) (V c main_v24) (V c main_v10) (V c main_v35) (V c main_v36) (V c main_v37) :=
  (dat1 V c).arrAt_eq_of_cover 6 _ (fun t _ => flushed1 V c t) cover1

end Region1

end Cert.KernelIdeal.RegionValue

end
-- ==== Proof.HostSide.lean ====
/-
  The idealized kernel's result as a function of its arguments.

  Around its two regions @main computes, on the host, from the edge list `e` (row 0 the source nodes, row 1 the
  destination nodes) and a feature array `h`:
    * the source row with negative entries wrapped by the node count, as a column of gather start indices;
    * the destination row as a column of scatter indices;
    * the rows of `h` gathered at the sources and summed into the rows named by the destinations (the summed neighbour
      features);
    * a one per edge summed into the entry named by its destination, clamped below by one, as a column (the clamped
      neighbour counts);
    * the two weight matrices transposed and the bias as a one-row array.
  A region then leaves the dense layer (Dense.lean) of those six arrays (RegionValue.lean).  The first region's layer is
  of the input features; the second stretch gathers and sums the first region's result with the same index columns, and
  the second region's layer is of that result, with the same column of counts, computed once.

  Each buffer's contents at a region's entry are read off the generated fold of the host operations through the
  boundaries' contents `W0 … W4`; a buffer no operation of a stretch writes, and a region's input array, keeps its contents.
-/
import proofs.«122777_j4269197492516_2_alg».proof.Proof.Gen.KernelIdeal.Frame
import proofs.«122777_j4269197492516_2_alg».proof.Proof.RegionValue

set_option maxRecDepth 16384

noncomputable section

namespace Cert.KernelIdeal.HostSide

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

/-! ## The host's pieces -/

/-- The edge list's source row. -/
def srcRow (e : IVec S2x1600000 32) : IVec S1600000 32 :=
  shapeCast S1600000 (extractStridedSlice S1x1600000 ![0, 0] e slices_S2x1600000_S1x1600000_0_0) shapeCasts_S1x1600000_S1600000

/-- The edge list's destination row. -/
def dstRow (e : IVec S2x1600000 32) : IVec S1600000 32 :=
  shapeCast S1600000 (extractStridedSlice S1x1600000 ![1, 0] e slices_S2x1600000_S1x1600000_1_0) shapeCasts_S1x1600000_S1600000

/-- Gather start indices from a row of sources: a negative entry has the node count added. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Scatter indices from a row of destinations. -/
def dstCol (d : IVec S1600000 32) : IVec S1600000x1 32 :=
  broadcastInDim S1600000x1 ![0] bcast_S1600000_S1600000x1_0 d

/-- The summed neighbour features: the rows of `h` at the sources, summed into the rows at the destinations. -/
def agg (h : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol d)
    (Host.gather gather_S100000x128_S1600000x1_S1600000x128_1_0_n_n_0_1_1128 h (srcCol s))

/-- The column of neighbour counts, clamped below by one. -/
def degCol (d : IVec S1600000 32) : FVec Ideal S100000x1 .f32 :=
  broadcastInDim S100000x1 ![0] bcast_S100000_S100000x1_0
    (maximumf
      (Host.scatterAdd scatter_S100000_S1600000x1_S1600000_n_0_0_1
        (broadcastInDim S100000 ![] bcast_S_S100000 (constant (F := Ideal) S_ .f32 0x00000000#32)) (dstCol d)
        (broadcastInDim S1600000 ![] bcast_S_S1600000 (constant (F := Ideal) S_ .f32 0x3F800000#32)))
      (broadcastInDim S100000 ![] bcast_S_S100000 (constant (F := Ideal) S_ .f32 0x3F800000#32)))

/-- One graph-convolution layer: the dense layer of the summed neighbour features, the features themselves, the
    clamped counts, the transposed weights and the bias row. -/
def layer (h : FVec Ideal S100000x128 .f32) (s d : IVec S1600000 32) (Wl Wr : FVec Ideal S128x128 .f32)
    (b : FVec Ideal S128 .f32) : FVec Ideal S100000x128 .f32 :=
  Cert.Dense.combine 100000 (agg h s d) h (degCol d)
    (transpose S128x128 [1, 0] Wl transposes_S128x128_S128x128_1_0)
    (transpose S128x128 [1, 0] Wr transposes_S128x128_S128x128_1_0)
    (broadcastInDim S1x128 ![1] bcast_S128_S1x128_1 b)

/-- The two layers, one after the other, over one edge list. -/
def result (x : FVec Ideal S100000x128 .f32) (e : IVec S2x1600000 32) (Wl1 Wr1 : FVec Ideal S128x128 .f32)
    (b1 : FVec Ideal S128 .f32) (Wl2 Wr2 : FVec Ideal S128x128 .f32) (b2 : FVec Ideal S128 .f32) :
    FVec Ideal S100000x128 .f32 :=
  layer (layer x (srcRow e) (dstRow e) Wl1 Wr1 b1) (srcRow e) (dstRow e) Wl2 Wr2 b2

/-! ## The first region's entry contents -/

variable (m : (ℓ : Loc nD τ sig) → Buf (Elt Ideal) ℓ) (ρ : Dev nD → PrngReg) (c : Dev nD)

theorem W1_v1 : W1 m ρ c (Proc.devRef .tc main_v1) = srcRow (m ((c : Thread nD τ).loc main_arg1)) := by
  show StableHlo.after hostOps0 (W0 m ρ c) (Proc.devRef .tc main_v1) = _
  after_results_simp <;> rfl

theorem W1_v3 : W1 m ρ c (Proc.devRef .tc main_v3) = dstRow (m ((c : Thread nD τ).loc main_arg1)) := by
  show StableHlo.after hostOps0 (W0 m ρ c) (Proc.devRef .tc main_v3) = _
  after_results_simp <;> rfl

theorem W1_v20 : W1 m ρ c (Proc.devRef .tc main_v20)
    = agg (m ((c : Thread nD τ).loc main_arg0)) (srcRow (m ((c : Thread nD τ).loc main_arg1)))
        (dstRow (m ((c : Thread nD τ).loc main_arg1))) := by
  show StableHlo.after hostOps0 (W0 m ρ c) (Proc.devRef .tc main_v20) = _
  after_results_simp <;> rfl

theorem W1_v10 : W1 m ρ c (Proc.devRef .tc main_v10) = degCol (dstRow (m ((c : Thread nD τ).loc main_arg1))) := by
  show StableHlo.after hostOps0 (W0 m ρ c) (Proc.devRef .tc main_v10) = _
  after_results_simp <;> rfl

theorem W1_v21 : W1 m ρ c (Proc.devRef .tc main_v21)
    = transpose S128x128 [1, 0] (m ((c : Thread nD τ).loc main_arg2)) transposes_S128x128_S128x128_1_0 := by
  show StableHlo.after hostOps0 (W0 m ρ c) (Proc.devRef .tc main_v21) = _
  after_results_simp <;> rfl

theorem W1_v22 : W1 m ρ c (Proc.devRef .tc main_v22)
    = transpose S128x128 [1, 0] (m ((c : Thread nD τ).loc main_arg3)) transposes_S128x128_S128x128_1_0 := by
  show StableHlo.after hostOps0 (W0 m ρ c) (Proc.devRef .tc main_v22) = _
  after_results_simp <;> rfl

theorem W1_v23 : W1 m ρ c (Proc.devRef .tc main_v23)
    = broadcastInDim S1x128 ![1] bcast_S128_S1x128_1 (m ((c : Thread nD τ).loc main_arg4)) := by
  show StableHlo.after hostOps0 (W0 m ρ c) (Proc.devRef .tc main_v23) = _
  after_results_simp <;> rfl

theorem W1_arg0 : W1 m ρ c (Proc.devRef .tc main_arg0) = m ((c : Thread nD τ).loc main_arg0) := by
  show StableHlo.after hostOps0 (W0 m ρ c) (Proc.devRef .tc main_arg0) = _
  after_results_simp <;> rfl

theorem W1_arg5 : W1 m ρ c (Proc.devRef .tc main_arg5) = m ((c : Thread nD τ).loc main_arg5) := by
  show StableHlo.after hostOps0 (W0 m ρ c) (Proc.devRef .tc main_arg5) = _
  after_results_simp <;> rfl

theorem W1_arg6 : W1 m ρ c (Proc.devRef .tc main_arg6) = m ((c : Thread nD τ).loc main_arg6) := by
  show StableHlo.after hostOps0 (W0 m ρ c) (Proc.devRef .tc main_arg6) = _
  after_results_simp <;> rfl

theorem W1_arg7 : W1 m ρ c (Proc.devRef .tc main_arg7) = m ((c : Thread nD τ).loc main_arg7) := by
  show StableHlo.after hostOps0 (W0 m ρ c) (Proc.devRef .tc main_arg7) = _
  after_results_simp <;> rfl

/-! ## After the first region -/

/-- The first region's result: the first layer. -/
theorem W2_v24 : W2 m ρ c (Proc.devRef .tc main_v24)
    = layer (m ((c : Thread nD τ).loc main_arg0)) (srcRow (m ((c : Thread nD τ).loc main_arg1)))
        (dstRow (m ((c : Thread nD τ).loc main_arg1))) (m ((c : Thread nD τ).loc main_arg2))
        (m ((c : Thread nD τ).loc main_arg3)) (m ((c : Thread nD τ).loc main_arg4)) := by
  refine (W2_arr m ρ c 6).trans ((Cert.KernelIdeal.RegionValue.final0 (V1 m ρ) c).trans ?_)
  show Cert.Dense.combine 100000 (W1 m ρ c (Proc.devRef .tc main_v20)) (W1 m ρ c (Proc.devRef .tc main_arg0))
      (W1 m ρ c (Proc.devRef .tc main_v10)) (W1 m ρ c (Proc.devRef .tc main_v21)) (W1 m ρ c (Proc.devRef .tc main_v22))
      (W1 m ρ c (Proc.devRef .tc main_v23)) = _
  rw [W1_v20, W1_arg0, W1_v10, W1_v21, W1_v22, W1_v23]
  rfl

/-- The first region leaves its inputs and every other buffer as they were. -/
theorem W2_v10 : W2 m ρ c (Proc.devRef .tc main_v10) = degCol (dstRow (m ((c : Thread nD τ).loc main_arg1))) :=
  ((W2_arr m ρ c 2).trans (((dat0 (V1 m ρ) c).arrAt_in 2 rfl _).trans (A_eq0 (V1 m ρ) c 2))).trans (W1_v10 m ρ c)

theorem W2_v1 : W2 m ρ c (Proc.devRef .tc main_v1) = srcRow (m ((c : Thread nD τ).loc main_arg1)) :=
  (W2_of_ne m ρ c main_v1 (by decide)).trans (W1_v1 m ρ c)

theorem W2_v3 : W2 m ρ c (Proc.devRef .tc main_v3) = dstRow (m ((c : Thread nD τ).loc main_arg1)) :=
  (W2_of_ne m ρ c main_v3 (by decide)).trans (W1_v3 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_arg7 : W2 m ρ c (Proc.devRef .tc main_arg7) = m ((c : Thread nD τ).loc main_arg7) :=
  (W2_of_ne m ρ c main_arg7 (by decide)).trans (W1_arg7 m ρ c)

/-! ## The second region's entry contents -/

theorem W3_v34 : W3 m ρ c (Proc.devRef .tc main_v34)
    = agg (W2 m ρ c (Proc.devRef .tc main_v24)) (W2 m ρ c (Proc.devRef .tc main_v1)) (W2 m ρ c (Proc.devRef .tc main_v3)) := by
  show StableHlo.after hostOps1 (W2 m ρ c) (Proc.devRef .tc main_v34) = _
  after_results_simp <;> rfl

theorem W3_v24 : W3 m ρ c (Proc.devRef .tc main_v24) = W2 m ρ c (Proc.devRef .tc main_v24) := by
  show StableHlo.after hostOps1 (W2 m ρ c) (Proc.devRef .tc main_v24) = _
  after_results_simp

theorem W3_v10 : W3 m ρ c (Proc.devRef .tc main_v10) = W2 m ρ c (Proc.devRef .tc main_v10) := by
  show StableHlo.after hostOps1 (W2 m ρ c) (Proc.devRef .tc main_v10) = _
  after_results_simp

theorem W3_v35 : W3 m ρ c (Proc.devRef .tc main_v35)
    = transpose S128x128 [1, 0] (W2 m ρ c (Proc.devRef .tc main_arg5)) transposes_S128x128_S128x128_1_0 := by
  show StableHlo.after hostOps1 (W2 m ρ c) (Proc.devRef .tc main_v35) = _
  after_results_simp <;> rfl

theorem W3_v36 : W3 m ρ c (Proc.devRef .tc main_v36)
    = transpose S128x128 [1, 0] (W2 m ρ c (Proc.devRef .tc main_arg6)) transposes_S128x128_S128x128_1_0 := by
  show StableHlo.after hostOps1 (W2 m ρ c) (Proc.devRef .tc main_v36) = _
  after_results_simp <;> rfl

theorem W3_v37 : W3 m ρ c (Proc.devRef .tc main_v37)
    = broadcastInDim S1x128 ![1] bcast_S128_S1x128_1 (W2 m ρ c (Proc.devRef .tc main_arg7)) := by
  show StableHlo.after hostOps1 (W2 m ρ c) (Proc.devRef .tc main_v37) = _
  after_results_simp <;> rfl

/-! ## The result -/

/-- THE KERNEL'S RESULT: the last boundary's contents of the result buffer are the two layers of the arguments. -/
theorem W4_v38 : W4 m ρ c (Proc.devRef .tc main_v38)
    = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 6).trans ((Cert.KernelIdeal.RegionValue.final1 (V3 m ρ) c).trans ?_)
  show Cert.Dense.combine 100000 (W3 m ρ c (Proc.devRef .tc main_v34)) (W3 m ρ c (Proc.devRef .tc main_v24))
      (W3 m ρ c (Proc.devRef .tc main_v10)) (W3 m ρ c (Proc.devRef .tc main_v35)) (W3 m ρ c (Proc.devRef .tc main_v36))
      (W3 m ρ c (Proc.devRef .tc main_v37)) = _
  rw [W3_v34, W3_v24, W3_v10, W3_v35, W3_v36, W3_v37, W2_v24, W2_v10, W2_v1, W2_v3, W2_arg5, W2_arg6, W2_arg7]
  rfl

end Cert.KernelIdeal.HostSide

end
-- ==== Proof.RefSide.lean ====
/-
  The idealized reference computes the kernel's function.

  The reference's result is, by its generated run, one closed term of the arguments: twice over, the host's form of
  the dense layer — the summed neighbour features divided by the clamped counts broadcast along the features, times
  the transposed first weights, plus the bias broadcast down the rows, plus the features times the transposed second
  weights — applied to gathers and scatter-sums over the edge list that are, operation for operation and literal for
  literal, the ones the kernel's @main performs around its regions (it recomputes the counts for the second layer; the
  kernel reuses them: the same term).  The host's form is the dense layer (Dense.lean), so the term is the kernel's
  result function (HostSide.lean) of the same arguments.
-/
import proofs.«122777_j4269197492516_2_alg».proof.Proof.Gen.ReferenceIdeal.Run
import proofs.«122777_j4269197492516_2_alg».proof.Proof.HostSide

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-- The reference's contraction record is the plain rows-by-columns one. -/
theorem dot_plain : dot_S100000x128_S128x128_S100000x128_1_0_0_1_n_n = DotDims.plain 100000 128 128 := rfl

/-- The reference's result term is the two layers of its arguments. -/
theorem res_eq (m' : (ℓ : Loc nD τ sig) → Buf (Elt Ideal) ℓ) (c : Dev nD) :
    res_main_v57 (F := Ideal) m' c
      = Cert.KernelIdeal.HostSide.result (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7)) := by
  unfold res_main_v57
  rw [Cert.Dense.host_form 100000 dot_S100000x128_S128x128_S100000x128_1_0_0_1_n_n dot_plain,
    Cert.Dense.host_form 100000 dot_S100000x128_S128x128_S100000x128_1_0_0_1_n_n dot_plain]
  rfl

end Cert.ReferenceIdeal.RefValue

end
-- ==== Proof.lean ====
/-
  The certificate of a two-layer mean-aggregating graph convolution: a kernel that computes each layer's dense part
  in a pipelined region of twenty row blocks, against the plain array program.

  Both programs gather the features at each edge's source and sum them at its destination, count the edges arriving at
  each node and clamp the count below by one, divide, and apply the two weight matrices and the bias; then do the same
  to the first layer's result.  The kernel narrows the matrix products' operands to sixteen bits and takes the products
  block by block on the matrix unit into a zero accumulator; the reference takes them whole.  On the extended reals a
  change of format is the identity and each product is the plain sum over the contracted index, the two programs add
  in the same order, and every gather, scatter-sum and literal is the same: the two results are one function of the
  arguments (Proof/HostSide.lean `result`), with no use of the inputs' finiteness.

  The three frames: the two kernel programs' are generated; the reference's is its generated run with the result
  dropped.  The idealization rewrote nothing, so what it must preserve is trivial.
-/
import proofs.«122777_j4269197492516_2_alg».proof.Defs
import proofs.«122777_j4269197492516_2_alg».proof.Proof.Gen.Kernel
import proofs.«122777_j4269197492516_2_alg».proof.Proof.Gen.Kernel.Skeleton
import proofs.«122777_j4269197492516_2_alg».proof.Proof.Gen.Kernel.Launch
import proofs.«122777_j4269197492516_2_alg».proof.Proof.Gen.Kernel.Points
import proofs.«122777_j4269197492516_2_alg».proof.Proof.Gen.Kernel.Frame
import proofs.«122777_j4269197492516_2_alg».proof.Proof.Gen.KernelIdeal
import proofs.«122777_j4269197492516_2_alg».proof.Proof.Gen.KernelIdeal.Skeleton
import proofs.«122777_j4269197492516_2_alg».proof.Proof.Gen.KernelIdeal.Launch
import proofs.«122777_j4269197492516_2_alg».proof.Proof.Gen.KernelIdeal.Points
import proofs.«122777_j4269197492516_2_alg».proof.Proof.Gen.KernelIdeal.Frame
import proofs.«122777_j4269197492516_2_alg».proof.Proof.Gen.ReferenceIdeal
import proofs.«122777_j4269197492516_2_alg».proof.Proof.Gen.ReferenceIdeal.Run
import proofs.«122777_j4269197492516_2_alg».proof.Proof.Gen.Pre_finite_inputs
import proofs.«122777_j4269197492516_2_alg».proof.Proof.KernelRun
import proofs.«122777_j4269197492516_2_alg».proof.Proof.HostSide
import proofs.«122777_j4269197492516_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two layers of those arguments in their
    result: the kernel by its run read through the regions, the reference by its run's closed term. -/
theorem algebraic : Cert.algebraic_KernelIdeal_ReferenceIdeal := by
  intro m ρ m' ρ' _ hagree
  refine ⟨fun c => Cert.KernelIdeal.HostSide.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.W4_v38 m ρ c), (h c).2⟩)
      (Cert.KernelIdeal.KernelRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
